-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x64 : Shape := ⟨2, ![4096, 64]⟩
abbrev S64x256x128 : Shape := ⟨3, ![64, 256, 128]⟩
abbrev S64x256x64 : Shape := ⟨3, ![64, 256, 64]⟩
abbrev S64x256 : Shape := ⟨2, ![64, 256]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x256x128 : S_.BroadcastsInDim S64x256x128 (![] : Fin 0 → Fin S64x256x128.rank)
  reducesTo_S64x256x128_S_d0_1_2 : S64x256x128.ReducesTo [0, 1, 2] S_
  bcast_S_S64x256x64 : S_.BroadcastsInDim S64x256x64 (![] : Fin 0 → Fin S64x256x64.rank)
  reducesTo_S64x256x64_S_d0_1_2 : S64x256x64.ReducesTo [0, 1, 2] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256x64 .f32) (main_arg5 : FVec F S64x256 .f32) (main_arg6 : FVec F S64x256 .f32) (main_v13 : IVec S_ 1) (main_v16 : IVec S64x256x128 1) : IVec S_ 1 :=
  let main_c_5 : IVec S_ 1 := constantI S_ 1 1#1
  let main_v17 : IVec S_ 1 := (fun x v => Host.reduce IntOp.andi x v reducesTo_S64x256x128_S_d0_1_2 h_S_) main_v16 main_c_5
  let main_v18 : IVec S_ 1 := andi main_v13 main_v17
  let main_v19 : FVec F S64x256x64 .f32 := Host.absf main_arg4
  let main_cst_6 : FVec F S_ .f32 := constant S_ .f32 0x7F800000#32
  let main_v20 : FVec F S64x256x64 .f32 := broadcastInDim S64x256x64 ![] bcast_S_S64x256x64 main_cst_6
  let main_v21 : IVec S64x256x64 1 := cmpf .olt main_v19 main_v20
  let main_c_7 : IVec S_ 1 := constantI S_ 1 1#1
  let main_v22 : IVec S_ 1 := (fun x v => Host.reduce IntOp.andi x v reducesTo_S64x256x64_S_d0_1_2 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S4096x128 .f32) (main_arg1 : FVec F S4096x64 .f32) (main_arg2 : FVec F S4096x64 .f32) (main_arg3 : FVec F S64x256x128 .f32) (main_arg4 : FVec F S64x256x64 .f32) (main_arg5 : FVec F S64x256 .f32) (main_arg6 : FVec F S64x256 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x256x128 .f32 := Host.absf main_arg3
  let main_cst_4 : FVec F S_ .f32 := constant S_ .f32 0x7F800000#32
  let main_v15 : FVec F S64x256x128 .f32 := broadcastInDim S64x256x128 ![] bcast_S_S64x256x128 main_cst_4
  let main_v16 : IVec S64x256x128 1 := cmpf .olt main_v14 main_v15
  fn_part1 (F := F) main_arg4 main_arg5 main_arg6 main_v13 main_v16
-- ==== Kernel.lean ====
abbrev S4096x128 : Shape := ⟨2, ![4096, 128]⟩
abbrev S4096x64 : Shape := ⟨2, ![4096, 64]⟩
abbrev S64x256x128 : Shape := ⟨3, ![64, 256, 128]⟩
abbrev S64x256x64 : Shape := ⟨3, ![64, 256, 64]⟩
abbrev S64x256 : Shape := ⟨2, ![64, 256]⟩
abbrev S64x256x192 : Shape := ⟨3, ![64, 256, 192]⟩
abbrev S32x2x4x64x192 : Shape := ⟨5, ![32, 2, 4, 64, 192]⟩
abbrev S32x4x2x64x192 : Shape := ⟨5, ![32, 4, 2, 64, 192]⟩
abbrev S32x512x192 : Shape := ⟨3, ![32, 512, 192]⟩
abbrev S32x2x4x64 : Shape := ⟨4, ![32, 2, 4, 64]⟩
abbrev S32x4x2x64 : Shape := ⟨4, ![32, 4, 2, 64]⟩
abbrev S32x512 : Shape := ⟨2, ![32, 512]⟩
abbrev S4096x192 : Shape := ⟨2, ![4096, 192]⟩
abbrev S4096x4096 : Shape := ⟨2, ![4096, 4096]⟩
abbrev S512x192 : Shape := ⟨2, ![512, 192]⟩
abbrev S512x64 : Shape := ⟨2, ![512, 64]⟩
abbrev S512x4096 : Shape := ⟨2, ![512, 4096]⟩
abbrev S512x128 : Shape := ⟨2, ![512, 128]⟩
abbrev S1x512x192 : Shape := ⟨3, ![1, 512, 192]⟩
abbrev S1x512 : Shape := ⟨2, ![1, 512]⟩
abbrev S512 : Shape := ⟨1, ![512]⟩
abbrev S512x512 : Shape := ⟨2, ![512, 512]⟩

abbrev nBuf : Space → Nat
  | .hbm => 18
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S4096x64, .f32⟩
  | .hbm, ⟨3, _⟩ => ⟨S64x256x128, .f32⟩
  | .hbm, ⟨4, _⟩ => ⟨S64x256x64, .f32⟩
  | .hbm, ⟨5, _⟩ => ⟨S64x256, .f32⟩
  | .hbm, ⟨6, _⟩ => ⟨S64x256, .f32⟩
  | .hbm, ⟨7, _⟩ => ⟨S64x256x192, .f32⟩
  | .hbm, ⟨8, _⟩ => ⟨S64x256, .f32⟩
  | .hbm, ⟨9, _⟩ => ⟨S32x2x4x64x192, .f32⟩
  | .hbm, ⟨10, _⟩ => ⟨S32x4x2x64x192, .f32⟩
  | .hbm, ⟨11, _⟩ => ⟨S32x512x192, .f32⟩
  | .hbm, ⟨12, _⟩ => ⟨S32x512x192, .bf16⟩
  | .hbm, ⟨13, _⟩ => ⟨S32x2x4x64, .f32⟩
  | .hbm, ⟨14, _⟩ => ⟨S32x4x2x64, .f32⟩
  | .hbm, ⟨15, _⟩ => ⟨S32x512, .f32⟩
  | .hbm, ⟨16, _⟩ => ⟨S4096x192, .f32⟩
  | .hbm, ⟨17, _⟩ => ⟨S4096x4096, .f32⟩
  | .local _ .vmem, ⟨0, _⟩ => ⟨S512x192, .f32⟩
  | .local _ .vmem, ⟨1, _⟩ => ⟨S512x192, .f32⟩
  | .local _ .vmem, ⟨2, _⟩ => ⟨S512x64, .f32⟩
  | .local _ .vmem, ⟨3, _⟩ => ⟨S512x64, .f32⟩
  | .local _ .vmem, ⟨4, _⟩ => ⟨S32x512x192, .bf16⟩
  | .local _ .vmem, ⟨5, _⟩ => ⟨S32x512, .f32⟩
  | .local _ .vmem, ⟨6, _⟩ => ⟨S512x4096, .f32⟩
  | .local _ .vmem, ⟨7, _⟩ => ⟨S512x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v6 : Index := Scalar.indexCast arg6
  let c0_4 : Index := 0#32
  let c0_5 : Index := 0#32
  ![v6.toNat, 0, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let v9 : Index := Scalar.indexCast arg6
  let c0_6 : Index := 0#32
  ![v9.toNat, 0]
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v29 : BitVec 32 := Scalar.muli arg6 c128_i32
  v29
def k0_off3 (k0_t1 : Fin k0_t1_loop.trips) : Fin 2 → Nat :=
  let c0_7 : Index := 0#32
  let c0_i32 : BitVec 32 := 0#32
  let c1_i32 : BitVec 32 := 1#32
  let arg6 : BitVec 32 := Scf.iv c0_i32 c1_i32 k0_t1
  let c128_i32 : BitVec 32 := 128#32
  let v29 : BitVec 32 := Scalar.muli arg6 c128_i32
  let v30 : BitVec 32 := v29
  let v31 : Index := Scalar.indexCast v30
  ![0, v31.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S64x256x128_S64x256x64_S64x256x192_d2 : Shape.Concatenates [S64x256x128, S64x256x64] S64x256x192 2
  shapeCasts_S64x256x192_S32x2x4x64x192 : S64x256x192.ShapeCasts S32x2x4x64x192
  transposes_S32x2x4x64x192_S32x4x2x64x192_0_2_1_3_4 : S32x2x4x64x192.Transposes [0, 2, 1, 3, 4] S32x4x2x64x192
  shapeCasts_S32x4x2x64x192_S32x512x192 : S32x4x2x64x192.ShapeCasts S32x512x192
  bitsLt_bf16_f32 : FTy.bits .bf16 < FTy.bits .f32
  shapeCasts_S64x256_S32x2x4x64 : S64x256.ShapeCasts S32x2x4x64
  transposes_S32x2x4x64_S32x4x2x64_0_2_1_3 : S32x2x4x64.Transposes [0, 2, 1, 3] S32x4x2x64
  shapeCasts_S32x4x2x64_S32x512 : S32x4x2x64.ShapeCasts S32x512
  concatenates_S4096x128_S4096x64_S4096x192_d1 : Shape.Concatenates [S4096x128, S4096x64] S4096x192 1
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S512x64_S512x64_0_0 : ∀ a, (![0, 0] : Fin 2 → Nat) a + S512x64.size a ≤ S512x64.size a
  h_S512x64 : 0 < S512x64.numel
  concatenates_S512x64_S512x64_S512x128_d1 : Shape.Concatenates [S512x64, S512x64] S512x128 1
  h_S1x512x192 : 0 < S1x512x192.numel
  shapeCasts_S1x512x192_S512x192 : S1x512x192.ShapeCasts S512x192
  h_S1x512 : 0 < S1x512.numel
  shapeCasts_S1x512_S512 : S1x512.ShapeCasts S512
  shapeCasts_S512_S1x512 : S512.ShapeCasts S1x512
  broadcasts_S1x512_S512x512 : S1x512.Broadcasts S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  h_S512x128 : 0 < S512x128.numel
  dot_S512x192_S512x192_S512x512_1_1_0_0_n_n_wf : DotDims.WF S512x192 S512x192 S512x512 [1] [1] [0] [0] [] []
  hrank0 : 0 < grid0.rank
  k0_t1_ok : k0_t1_loop.OK
  k0_off1_inb : ∀ k0_t1 : Fin k0_t1_loop.trips, ∀ a, (k0_off1 k0_t1) a + S1x512x192.size a ≤ S32x512x192.size a
  k0_off2_inb : ∀ k0_t1 : Fin k0_t1_loop.trips, ∀ a, (k0_off2 k0_t1) a + S1x512.size a ≤ S32x512.size a
  k0_mult1_dvd : ∀ k0_t1 : Fin k0_t1_loop.trips, 128 ∣ (k0_mult1 k0_t1).toNat
  k0_off3_inb : ∀ k0_t1 : Fin k0_t1_loop.trips, ∀ a, (k0_off3 k0_t1) a + S512x128.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x192.size a ≤ S4096x192.size a
  hwx0_0 : ∀ i : grid0.Coords, EltTy.bits .f32 = 32 ∨ (Rect.block (s := S4096x192) S512x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512x192.size a ≤ S32x512x192.size a
  hwx0_2 : ∀ i : grid0.Coords, EltTy.bits .bf16 = 32 ∨ (Rect.block (s := S32x512x192) S32x512x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x192_S512x192_S512x512_1_1_0_0_n_n : DotDims S512x192 S512x192 S512x512 where
  lhsContracting := [1]
  rhsContracting := [1]
  lhsNonContracting := [0]
  rhsNonContracting := [0]
  lhsBatch := []
  rhsBatch := []
  wf := dot_S512x192_S512x192_S512x512_1_1_0_0_n_n_wf

abbrev win0_0 : Pipeline.Window sig grid0 :=
  Pipeline.Window.ofSpec (Memref.whole main_v9) S512x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x512x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x64 : Shape := ⟨2, ![4096, 64]⟩
abbrev S64x256x128 : Shape := ⟨3, ![64, 256, 128]⟩
abbrev S64x256x64 : Shape := ⟨3, ![64, 256, 64]⟩
abbrev S64x256 : Shape := ⟨2, ![64, 256]⟩
abbrev S64x256x4096 : Shape := ⟨3, ![64, 256, 4096]⟩
abbrev S64x4096x256 : Shape := ⟨3, ![64, 4096, 256]⟩
abbrev S64x1x256 : Shape := ⟨3, ![64, 1, 256]⟩
abbrev S64x4096x64 : Shape := ⟨3, ![64, 4096, 64]⟩
abbrev S_ : Shape := ⟨0, ![]⟩
abbrev S1x4096x64 : Shape := ⟨3, ![1, 4096, 64]⟩
abbrev S4096x64x64 : Shape := ⟨3, ![4096, 64, 64]⟩
abbrev S4096x4096 : Shape := ⟨2, ![4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S4096x64, .f32⟩
  | .hbm, ⟨3, _⟩ => ⟨S64x256x128, .f32⟩
  | .hbm, ⟨4, _⟩ => ⟨S64x256x64, .f32⟩
  | .hbm, ⟨5, _⟩ => ⟨S64x256, .f32⟩
  | .hbm, ⟨6, _⟩ => ⟨S64x256, .f32⟩
  | .hbm, ⟨7, _⟩ => ⟨S64x256x4096, .f32⟩
  | .hbm, ⟨8, _⟩ => ⟨S64x4096x256, .f32⟩
  | .hbm, ⟨9, _⟩ => ⟨S64x256x4096, .f32⟩
  | .hbm, ⟨10, _⟩ => ⟨S64x4096x256, .f32⟩
  | .hbm, ⟨11, _⟩ => ⟨S64x4096x256, .f32⟩
  | .hbm, ⟨12, _⟩ => ⟨S64x256, .f32⟩
  | .hbm, ⟨13, _⟩ => ⟨S64x1x256, .f32⟩
  | .hbm, ⟨14, _⟩ => ⟨S64x4096x256, .f32⟩
  | .hbm, ⟨15, _⟩ => ⟨S64x4096x256, .f32⟩
  | .hbm, ⟨16, _⟩ => ⟨S64x4096x64, .f32⟩
  | .hbm, ⟨17, _⟩ => ⟨S64x4096x64, .f32⟩
  | .hbm, ⟨18, _⟩ => ⟨S64x4096x64, .f32⟩
  | .hbm, ⟨19, _⟩ => ⟨S64x4096x64, .f32⟩
  | .hbm, ⟨20, _⟩ => ⟨S64x4096x64, .f32⟩
  | .hbm, ⟨21, _⟩ => ⟨S64x4096x64, .f32⟩
  | .hbm, ⟨22, _⟩ => ⟨S_, .f32⟩
  | .hbm, ⟨23, _⟩ => ⟨S64x4096x64, .f32⟩
  | .hbm, ⟨24, _⟩ => ⟨S64x4096x64, .f32⟩
  | .hbm, ⟨25, _⟩ => ⟨S_, .f32⟩
  | .hbm, ⟨26, _⟩ => ⟨S64x4096x64, .f32⟩
  | .hbm, ⟨27, _⟩ => ⟨S64x4096x64, .f32⟩
  | .hbm, ⟨28, _⟩ => ⟨S1x4096x64, .f32⟩
  | .hbm, ⟨29, _⟩ => ⟨S64x4096x64, .f32⟩
  | .hbm, ⟨30, _⟩ => ⟨S64x4096x64, .f32⟩
  | .hbm, ⟨31, _⟩ => ⟨S64x4096x64, .f32⟩
  | .hbm, ⟨32, _⟩ => ⟨S64x4096x64, .f32⟩
  | .hbm, ⟨33, _⟩ => ⟨S_, .f32⟩
  | .hbm, ⟨34, _⟩ => ⟨S64x4096x64, .f32⟩
  | .hbm, ⟨35, _⟩ => ⟨S64x4096x64, .f32⟩
  | .hbm, ⟨36, _⟩ => ⟨S_, .f32⟩
  | .hbm, ⟨37, _⟩ => ⟨S64x4096x64, .f32⟩
  | .hbm, ⟨38, _⟩ => ⟨S64x4096x64, .f32⟩
  | .hbm, ⟨39, _⟩ => ⟨S64x4096x64, .f32⟩
  | .hbm, ⟨40, _⟩ => ⟨S64x4096x64, .f32⟩
  | .hbm, ⟨41, _⟩ => ⟨S64x4096x64, .f32⟩
  | .hbm, ⟨42, _⟩ => ⟨S64x4096x64, .f32⟩
  | .hbm, ⟨43, _⟩ => ⟨S64x4096x64, .f32⟩
  | .hbm, ⟨44, _⟩ => ⟨S_, .f32⟩
  | .hbm, ⟨45, _⟩ => ⟨S64x4096x64, .f32⟩
  | .hbm, ⟨46, _⟩ => ⟨S64x4096x64, .f32⟩
  | .hbm, ⟨47, _⟩ => ⟨S_, .f32⟩
  | .hbm, ⟨48, _⟩ => ⟨S64x4096x64, .f32⟩
  | .hbm, ⟨49, _⟩ => ⟨S64x4096x64, .f32⟩
  | .hbm, ⟨50, _⟩ => ⟨S64x4096x64, .f32⟩
  | .hbm, ⟨51, _⟩ => ⟨S64x4096x64, .f32⟩
  | .hbm, ⟨52, _⟩ => ⟨S4096x64x64, .f32⟩
  | .hbm, ⟨53, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  transposes_S64x256x4096_S64x4096x256_0_2_1 : S64x256x4096.Transposes [0, 2, 1] S64x4096x256
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  slices_S64x4096x256_S64x4096x64_0_0_0 : S64x4096x256.Slices ![0, 0, 0] S64x4096x64
  slices_S64x4096x256_S64x4096x64_0_0_64 : S64x4096x256.Slices ![0, 0, 64] S64x4096x64
  slices_S64x4096x256_S64x4096x64_0_0_128 : S64x4096x256.Slices ![0, 0, 128] S64x4096x64
  slices_S64x4096x256_S64x4096x64_0_0_192 : S64x4096x256.Slices ![0, 0, 192] S64x4096x64
  bcast_S_S64x4096x64 : S_.BroadcastsInDim S64x4096x64 (![] : Fin 0 → Fin S64x4096x64.rank)
  bcast_S4096x64_S1x4096x64_1_2 : S4096x64.BroadcastsInDim S1x4096x64 (![1, 2] : Fin 2 → Fin S1x4096x64.rank)
  bcast_S1x4096x64_S64x4096x64_0_1_2 : S1x4096x64.BroadcastsInDim S64x4096x64 (![0, 1, 2] : Fin 3 → Fin S64x4096x64.rank)
  transposes_S64x4096x64_S4096x64x64_1_0_2 : S64x4096x64.Transposes [1, 0, 2] S4096x64x64
  shapeCasts_S4096x64x64_S4096x4096 : S4096x64x64.ShapeCasts S4096x4096
  dot_S64x256x128_S4096x128_S64x256x4096_2_1_01_0_n_n_wf : DotDims.WF S64x256x128 S4096x128 S64x256x4096 [2] [1] [0, 1] [0] [] []
  dot_S64x256x64_S4096x64_S64x256x4096_2_1_01_0_n_n_wf : DotDims.WF S64x256x64 S4096x64 S64x256x4096 [2] [1] [0, 1] [0] [] []

variable [Facts₀]

def dot_S64x256x128_S4096x128_S64x256x4096_2_1_01_0_n_n : DotDims S64x256x128 S4096x128 S64x256x4096 where
  lhsContracting := [2]
  rhsContracting := [1]
  lhsNonContracting := [0, 1]
  rhsNonContracting := [0]
  lhsBatch := []
  rhsBatch := []
  wf := dot_S64x256x128_S4096x128_S64x256x4096_2_1_01_0_n_n_wf
def dot_S64x256x64_S4096x64_S64x256x4096_2_1_01_0_n_n : DotDims S64x256x64 S4096x64 S64x256x4096 where
  lhsContracting := [2]
  rhsContracting := [1]
  lhsNonContracting := [0, 1]
  rhsNonContracting := [0]
  lhsBatch := []
  rhsBatch := []
  wf := dot_S64x256x64_S4096x64_S64x256x4096_2_1_01_0_n_n_wf

class Facts : Prop extends Facts₀ where

variable [Facts]
-- ==== Proof.PairTiles.lean ====
/-
  What one grid step leaves in its 512 × 4096 block of the result.

  The body walks the 32 expert pairs; the step for pair `p` computes a 512 × 128 tile (one row per batch row of the
  block, the two experts of the pair side by side, 64 lanes each) from the step's activations, its cell-state block
  and the pair's 512 × 192 weight rows and 512 biases, and stores it into columns `128 p … 128 p + 127`. The 32 tiles
  are disjoint and fill the block, so the block is read entry by entry: the entry in row `r`, column `q` is entry
  `(r, q mod 128)` of the tile of pair `q / 128` (`block_eq`). Nothing here looks inside the tile's arithmetic.
-/
import proofs.«148477_j83502754169015_2_alg».proof.Proof.Gen.KernelIdeal.Frame
import Idealize.ShloMosaic.Lib.Pipeline.Value
import Idealize.ShloMosaic.Lib.ValueIdx

set_option maxRecDepth 16384

noncomputable section

namespace Cert.KernelIdeal.PairTiles

open Cert.KernelIdeal Cert.KernelIdeal.Gen Idealize.ShloMosaic Idealize.ShloMosaic.TcCoe Idealize.SL.Sem
open Idealize.ShloMosaic.ValueIdx

variable {F : FTy → Type} [FloatOps F]

/-- The body's loop has 32 steps, one per expert pair. -/
theorem trips_eq : k0_t1_loop.trips = 32 := by decide +kernel

theorem zero2 : (![0, 0] : Fin 2 → Nat) = fun _ => 0 := funext fun a => by fin_cases a <;> rfl

/-- Pair `k`'s 512 weight rows (gate type, expert of the pair, hidden unit), each of length 192, as the step loads them. -/
def pairRows (w : Vec F S32x512x192 .bf16) (k : Fin k0_t1_loop.trips) : Vec F S1x512x192 .bf16 :=
  View.ld w (Rect.unit (s := S32x512x192) (k0_off1 k) S1x512x192.size (k0_off1_inb k))

/-- Pair `k`'s 512 biases, as the step loads them. -/
def pairBias (b : Vec F S32x512 .f32) (k : Fin k0_t1_loop.trips) : Vec F S1x512 .f32 :=
  View.ld b (Rect.unit (s := S32x512) (k0_off2 k) S1x512.size (k0_off2_inb k))

/-- Entry `(r, l)` of the tile the step for pair `k` stores. -/
def tile (a : Vec F S512x192 .f32) (cs : Vec F S512x64 .f32) (w : Vec F S32x512x192 .bf16) (b : Vec F S32x512 .f32)
    (k : Fin k0_t1_loop.trips) (r : Fin 512) (l : Fin 128) : Elt F .f32 :=
  k0_pay1 a cs (pairRows w k) (pairBias b k) (ix2 r l)

theorem tile_congr (a : Vec F S512x192 .f32) (cs : Vec F S512x64 .f32) (w : Vec F S32x512x192 .bf16) (b : Vec F S32x512 .f32)
    {k k' : Fin k0_t1_loop.trips} {r r' : Fin 512} {l l' : Fin 128}
    (hk : k'.val = k.val) (hr : r'.val = r.val) (hl : l'.val = l.val) : tile a cs w b k' r' l' = tile a cs w b k r l := by
  obtain rfl := Fin.ext hk; obtain rfl := Fin.ext hr; obtain rfl := Fin.ext hl; rfl

/-- The block, entry by entry: column `q` belongs to pair `q / 128`, lane `q mod 128` of its tile. -/
def block (a : Vec F S512x192 .f32) (cs : Vec F S512x64 .f32) (w : Vec F S32x512x192 .bf16) (b : Vec F S32x512 .f32) :
    S512x4096.Idx → Elt F .f32 := fun y =>
  tile a cs w b ⟨(y 1).val / 128, by rw [trips_eq]; have := idx2_lt1 y; omega⟩ (y 0) ⟨(y 1).val % 128, Nat.mod_lt _ (by decide)⟩

section Pieces

variable (𝒱 : Variants) (c : Dev nD) (bd : Option 𝒱.V) (i : grid0.Coords)
  (arg1 : Memref sig .tc .vmem S512x192 .f32) (harg1 : arg1.IsWhole) (arg2 : Memref sig .tc .vmem S512x64 .f32) (harg2 : arg2.IsWhole)
  (arg3 : Memref sig .tc .vmem S32x512x192 .bf16) (harg3 : arg3.IsWhole) (arg4 : Memref sig .tc .vmem S32x512 .f32) (harg4 : arg4.IsWhole)
  (arg5 : Memref sig .tc .vmem S512x4096 .f32) (harg5 : arg5.IsWhole)

/-- One step stores one piece: its tile, at columns `128 k …`. -/
theorem step_pieces (v0 : Vec F S512x192 .f32) (v3 : Vec F S512x64 .f32) (X3 : BufTy.Contents (Elt F) arg3.view.ty)
    (X4 : BufTy.Contents (Elt F) arg4.view.ty) (k : Fin k0_t1_loop.trips) :
    tripL_k0_t1 (F := F) 𝒱 c bd i arg1 harg1 arg2 harg2 arg3 harg3 arg4 harg4 arg5 harg5 v0 v3 X3 X4 k
      = [⟨Rect.unit (s := S512x4096) (k0_off3 k) S512x128.size (k0_off3_inb k),
          k0_pay1 v0 v3 (View.readAt (Elt F) arg3.view (Rect.unit (s := S32x512x192) (k0_off1 k) S1x512x192.size (k0_off1_inb k)).toLoadRect X3)
            (View.readAt (Elt F) arg4.view (Rect.unit (s := S32x512) (k0_off2 k) S1x512.size (k0_off2_inb k)).toLoadRect X4)⟩] := by
  unfold tripL_k0_t1 trip_k0_t1
  rfl

/-- Every piece the steps before the `n`-th have stored is some step's. -/
theorem mem_steps (v0 : Vec F S512x192 .f32) (v3 : Vec F S512x64 .f32) (X3 : BufTy.Contents (Elt F) arg3.view.ty)
    (X4 : BufTy.Contents (Elt F) arg4.view.ty) (p : View.Piece (Elt F) S512x4096 .f32) :
    ∀ n : ℕ, p ∈ pb_k0_t1 (F := F) 𝒱 c bd i arg1 harg1 arg2 harg2 arg3 harg3 arg4 harg4 arg5 harg5 v0 v3 X3 X4 n →
      ∃ k : Fin k0_t1_loop.trips, p ∈ tripL_k0_t1 (F := F) 𝒱 c bd i arg1 harg1 arg2 harg2 arg3 harg3 arg4 harg4 arg5 harg5 v0 v3 X3 X4 k
  | 0, h => by rw [pb_k0_t1.eq_1] at h; exact absurd h List.not_mem_nil
  | n + 1, h => by
    rw [pb_k0_t1.eq_2] at h
    unfold pb_k0_t1Step at h
    by_cases hn : n < k0_t1_loop.trips
    · rw [dif_pos hn] at h
      rcases List.mem_append.mp h with h | h
      · exact ⟨⟨n, hn⟩, h⟩
      · exact mem_steps v0 v3 X3 X4 p n h
    · rw [dif_neg hn] at h
      exact mem_steps v0 v3 X3 X4 p n h

end Pieces

/-- What the body leaves in the result's staging block, whatever buffers it ran on: the 32 tiles side by side. -/
theorem block_eq (c : Dev nD) (i : grid0.Coords)
    (arg1 : Memref sig .tc .vmem S512x192 .f32) (harg1 : arg1.IsWhole) (arg2 : Memref sig .tc .vmem S512x64 .f32) (harg2 : arg2.IsWhole)
    (arg3 : Memref sig .tc .vmem S32x512x192 .bf16) (harg3 : arg3.IsWhole) (arg4 : Memref sig .tc .vmem S32x512 .f32) (harg4 : arg4.IsWhole)
    (arg5 : Memref sig .tc .vmem S512x4096 .f32) (harg5 : arg5.IsWhole)
    (x0 : Vec F S512x192 .f32) (x1 : Vec F S512x64 .f32) (x2 : Vec F S32x512x192 .bf16) (x3 : Vec F S32x512 .f32) :
    out0_A_4 c i arg1 harg1 arg2 harg2 arg3 harg3 arg4 harg4 arg5 harg5 x0 x1 x2 x3 = block x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (block x0 x1 x2 x3) _ ?_ y
    (cover0_A_4 c i arg1 harg1 arg2 harg2 arg3 harg3 arg4 harg4 arg5 harg5 x0 x1 x2 x3 y)
  intro p hp x
  unfold kernelRun0_A at hp
  dsimp only at hp
  obtain ⟨k, hk⟩ := mem_steps _ _ _ _ _ _ _ _ _ _ _ _ _ _ _ _ _ _ _ _ hp
  rw [step_pieces, List.mem_singleton] at hk
  subst hk
  dsimp only
  simp only [View.readAt_eq_ld, harg1.read_unread, harg2.read_unread, harg3.read_unread, harg4.read_unread,
    View.ld_unit_zero (S := S512x192) zero2, View.ld_unit_zero (S := S512x64) zero2]
  have hoff : k0_off3 k = ![0, 128 * k.val] := k0_off3_eq k
  have h0 : k0_off3 k 0 = 0 := congrFun hoff 0
  have h1 : k0_off3 k 1 = 128 * k.val := congrFun hoff 1
  have hx0 : (x 0).val < 512 := (x 0).isLt
  have hx1 : (x 1).val < 128 := (x 1).isLt
  have e0 : ((Rect.unit (s := S512x4096) (k0_off3 k) S512x128.size (k0_off3_inb k)).emb x 0).val = (x 0).val := by
    show k0_off3 k 0 + 1 * (x 0).val = (x 0).val
    omega
  have e1 : ((Rect.unit (s := S512x4096) (k0_off3 k) S512x128.size (k0_off3_inb k)).emb x 1).val
      = 128 * k.val + (x 1).val := by
    show k0_off3 k 1 + 1 * (x 1).val = _
    omega
  unfold block
  refine Eq.trans ?_ (tile_congr x0 x1 x2 x3 (k := k) (r := x 0) (l := x 1) ?_ ?_ ?_).symm
  · unfold tile pairRows pairBias
    exact congrArg _ (eq_ix2 x)
  · show ((Rect.unit (s := S512x4096) (k0_off3 k) S512x128.size (k0_off3_inb k)).emb x 1).val / 128 = k.val
    rw [e1]; omega
  · exact e0
  · show ((Rect.unit (s := S512x4096) (k0_off3 k) S512x128.size (k0_off3_inb k)).emb x 1).val % 128 = (x 1).val
    rw [e1]; omega

end Cert.KernelIdeal.PairTiles

end
-- ==== Proof.LstmSpec.lean ====
/-
  The mixture of 64 LSTM cells, entry by entry, on the extended reals.

  For expert `n`, batch row `b` and gate row `g` (256 rows: input, forget, cell and output gates, 64 hidden units
  each) the pre-activation is
      z n b g = Σ_d W_ih[n,g,d] · x[b,d]  +  Σ_e W_hh[n,g,e] · h0[b,e]  +  (b_ih[n,g] + b_hh[n,g]),
  the new cell state of hidden unit `u` is  σ(z_f) · c0[b,u] + σ(z_i) · tanh(z_g),  and the new hidden state is
  σ(z_o) · tanh(of that), with σ x = 1 / (1 + e^(-x)). The result has row `b` and, in column `64 n + u`, expert
  `n`'s hidden unit `u`.

  Two laws join the two programs. A sum over 192 terms is the sum of its first 128 and its last 64 (the kernel
  multiplies the joined row (x[b], h0[b]) with the joined weight row, the reference adds two products). And
  1 / (1 + e^(-x)), spelt with the word of the float 1.0, is the logistic function (the reference spells it, the
  kernel has one operation for it). Neither needs the inputs to be finite: sums and products of extended reals
  commute and associate everywhere.
-/
import Idealize.ShloMosaic.PureOps.Ideal
import Idealize.ShloMosaic.PureOps.IdealRules
import Idealize.ShloMosaic.Lib.ValueIdx

noncomputable section

open scoped BigOperators

namespace Cert.LstmSpec

open Idealize.ShloMosaic Idealize.ShloMosaic.ValueIdx

/-- A matrix of extended reals. -/
abbrev Mat (a b : ℕ) : Type := (⟨2, ![a, b]⟩ : Shape).Idx → EReal
/-- A rank-3 array of extended reals. -/
abbrev Ten (a b c : ℕ) : Type := (⟨3, ![a, b, c]⟩ : Shape).Idx → EReal

section

variable (x : Mat 4096 128) (h0 c0 : Mat 4096 64) (Wih : Ten 64 256 128) (Whh : Ten 64 256 64) (bih bhh : Mat 64 256)

/-- The pre-activation of gate row `g` of expert `n` on batch row `b`. -/
def gate (n : Fin 64) (b : Fin 4096) (g : Fin 256) : EReal :=
  (∑ d : Fin 128, Wih (ix3 n g d) * x (ix2 b d)) + (∑ e : Fin 64, Whh (ix3 n g e) * h0 (ix2 b e))
    + (bih (ix2 n g) + bhh (ix2 n g))

/-- One cell's new hidden state from its four pre-activations (input, forget, cell, output) and its old cell state. -/
def cellOut (zi zf zg zo cprev : EReal) : EReal :=
  Ideal.logistic zo * Ideal.tanh (Ideal.logistic zf * cprev + Ideal.logistic zi * Ideal.tanh zg)

/-- Expert `n`'s new hidden unit `u` on batch row `b`. -/
def newHidden (n : Fin 64) (b : Fin 4096) (u : Fin 64) : EReal :=
  cellOut (gate x h0 Wih Whh bih bhh n b ⟨u.val, by omega⟩) (gate x h0 Wih Whh bih bhh n b ⟨64 + u.val, by omega⟩)
    (gate x h0 Wih Whh bih bhh n b ⟨128 + u.val, by omega⟩) (gate x h0 Wih Whh bih bhh n b ⟨192 + u.val, by omega⟩)
    (c0 (ix2 b u))

/-- The result: row `b`, column `64 n + u` holds expert `n`'s hidden unit `u`. -/
def result : Mat 4096 4096 := fun i =>
  newHidden x h0 c0 Wih Whh bih bhh ⟨(i 1).val / 64, by have := idx2_lt1 i; omega⟩ (i 0)
    ⟨(i 1).val % 64, Nat.mod_lt _ (by decide)⟩

end

/-- A sum of 192 terms is the sum of the first 128 and the last 64. -/
theorem sum_split {M : Type*} [AddCommMonoid M] (f : Fin 192 → M) :
    ∑ k : Fin 192, f k = (∑ d : Fin 128, f ⟨d.val, by omega⟩) + ∑ e : Fin 64, f ⟨128 + e.val, by omega⟩ :=
  Fin.sum_univ_add (a := 128) (b := 64) f

/-- The word of the float 1.0 is the number 1. -/
theorem one_f32 : Ideal.ofBits .f32 0x3F800000#32 = 1 := IdealRules.sign_bit.ideal_onePat .f32

/-- `1 / (1 + e^(-z))`, spelt with that word, is the logistic function. -/
theorem logistic_spelt (z : EReal) :
    Ideal.div (Ideal.ofBits .f32 0x3F800000#32) (Ideal.ofBits .f32 0x3F800000#32 + Ideal.exp (-z)) = Ideal.logistic z := by
  rw [one_f32]; rfl

end Cert.LstmSpec

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.TileEntry.lean ====
/-
  One entry of one pair's tile, on the extended reals.

  The step for expert pair `p` multiplies the 512 × 192 block of joined activations (x[b], h0[b]) with the pair's 512
  joined weight rows, adds the pair's 512 biases to every row, cuts the 512 columns into four groups of 128 (input,
  forget, cell, output gate; within a group the pair's first expert's 64 hidden units, then the second's), and
  applies the LSTM cell to the four groups and to the old cell state written twice side by side. So entry `(r, l)`
  of the tile is the cell of the four pre-activations in columns `l`, `128 + l`, `256 + l`, `384 + l` and of the
  old cell state in column `l mod 64`, each pre-activation a sum over the 192 joined columns plus a bias
  (`tile_entry`). A change of float format is the identity on the extended reals, and the product into a zero
  accumulator is the plain sum of products.
-/
import proofs.«148477_j83502754169015_2_alg».proof.Proof.PairTiles
import proofs.«148477_j83502754169015_2_alg».proof.Proof.LstmSpec
import proofs.«148477_j83502754169015_2_alg».proof.Proof.LibStack
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.TileEntry

open Cert.KernelIdeal Cert.KernelIdeal.Gen Cert.KernelIdeal.PairTiles Idealize.ShloMosaic Idealize.ShloMosaic.ValueIdx
open Cert.LstmSpec

/-- The product's left operand is read on the row of the result's row … -/
theorem lhs_row (i : S512x512.Idx) (q : dot_S512x192_S512x192_S512x512_1_1_0_0_n_n.contr.Idx) :
    (dot_S512x192_S512x192_S512x512_1_1_0_0_n_n.lhsIdx i q 0).val = (i 0).val := by
  unfold DotDims.lhsIdx
  rw [dif_neg (show ¬(0 : Fin S512x192.rank) ∈ dot_S512x192_S512x192_S512x512_1_1_0_0_n_n.lhsBatch by decide),
    dif_pos (show (0 : Fin S512x192.rank) ∈ dot_S512x192_S512x192_S512x512_1_1_0_0_n_n.lhsNonContracting by decide)]
  rfl
/-- … and its right operand on the row of the result's column. -/
theorem rhs_row (i : S512x512.Idx) (q : dot_S512x192_S512x192_S512x512_1_1_0_0_n_n.contr.Idx) :
    (dot_S512x192_S512x192_S512x512_1_1_0_0_n_n.rhsIdx i q 0).val = (i 1).val := by
  unfold DotDims.rhsIdx
  rw [dif_neg (show ¬(0 : Fin S512x192.rank) ∈ dot_S512x192_S512x192_S512x512_1_1_0_0_n_n.rhsBatch by decide),
    dif_pos (show (0 : Fin S512x192.rank) ∈ dot_S512x192_S512x192_S512x512_1_1_0_0_n_n.rhsNonContracting by decide)]
  rfl

/-- The activations-times-weight-rows product: entry `(r, j)` is the sum over the 192 joined columns. -/
theorem product_entry (a wr : FVec Ideal S512x192 .bf16) (r j : Fin 512) :
    matmul dot_S512x192_S512x192_S512x512_1_1_0_0_n_n none a wr (constant S512x512 .f32 0x00000000#32) (ix2 r j)
      = ∑ q : Fin 192, a (ix2 r q) * wr (ix2 j q) := by
  refine (Ideal.matmul_constant_zero_apply dot_S512x192_S512x192_S512x512_1_1_0_0_n_n none a wr (ix2 r j)).trans ?_
  rw [← Equiv.sum_comp (contrEquiv1 dot_S512x192_S512x192_S512x512_1_1_0_0_n_n 192 rfl rfl).symm]
  refine Finset.sum_congr rfl fun q _ => ?_
  have hq := contrEquiv1_symm_val dot_S512x192_S512x192_S512x512_1_1_0_0_n_n 192 rfl rfl q
  have el : dot_S512x192_S512x192_S512x512_1_1_0_0_n_n.lhsIdx (ix2 r j)
      ((contrEquiv1 dot_S512x192_S512x192_S512x512_1_1_0_0_n_n 192 rfl rfl).symm q) = ix2 r q :=
    funext fun a => Fin.ext (by
      match a with
      | ⟨0, _⟩ => exact lhs_row _ _
      | ⟨1, _⟩ => exact (dot_S512x192_S512x192_S512x512_1_1_0_0_n_n.lhsIdx_val_of_single rfl _ _).trans hq)
  have er : dot_S512x192_S512x192_S512x512_1_1_0_0_n_n.rhsIdx (ix2 r j)
      ((contrEquiv1 dot_S512x192_S512x192_S512x512_1_1_0_0_n_n 192 rfl rfl).symm q) = ix2 j q :=
    funext fun a => Fin.ext (by
      match a with
      | ⟨0, _⟩ => exact rhs_row _ _
      | ⟨1, _⟩ => exact (dot_S512x192_S512x192_S512x512_1_1_0_0_n_n.rhsIdx_val_of_single rfl _ _).trans hq)
  rw [el, er]

/-- A row of 512 biases laid over all 512 rows: entry `(r, j)` is the `j`-th bias. -/
theorem bias_rows (v : FVec Ideal S1x512 .f32) (h1 : S1x512.ShapeCasts S512) (h2 : S512.ShapeCasts S1x512)
    (h3 : S1x512.Broadcasts S512x512) (r j : Fin 512) :
    broadcastTo S512x512 (shapeCast S1x512 (shapeCast S512 v h1) h2) h3 (ix2 r j) = v (ix2 (0 : Fin 1) j) := by
  rw [shapeCast_shapeCast]
  exact broadcastTo_apply v h3 (ix2 r j) (ix2 (0 : Fin 1) j) fun a => by
    match a with
    | ⟨0, _⟩ => show (0 : ℕ) = if (1 : ℕ) = 1 then 0 else _; rw [if_pos rfl]
    | ⟨1, _⟩ => show j.val = if (512 : ℕ) = 1 then 0 else j.val; rw [if_neg (by decide)]

/-- A group of 128 columns starting at column `o`. -/
theorem group_entry {α : Type} (o : ℕ) (G : S512x512.Idx → α) (h : S512x512.Slices ![0, o] S512x128) (r : Fin 512) (l : Fin 128)
    (j : Fin 512) (hj : j.val = o + l.val) :
    extractStridedSlice S512x128 ![0, o] G h (ix2 r l) = G (ix2 r j) :=
  extractStridedSlice_apply ![0, o] G h (ix2 r l) (ix2 r j) fun a => by
    match a with
    | ⟨0, _⟩ => show r.val = 0 + r.val; omega
    | ⟨1, _⟩ => exact hj

/-- The old cell state written twice side by side: lane `l` reads column `l mod 64`. -/
theorem twice_entry {α : Type} (cs : S512x64.Idx → α) (h : Shape.Concatenates [S512x64, S512x64] S512x128 1) (r : Fin 512) (l : Fin 128) :
    concatenate S512x128 1 [⟨S512x64, cs⟩, ⟨S512x64, cs⟩] h (ix2 r l)
      = cs (ix2 r (⟨l.val % 64, Nat.mod_lt _ (by decide)⟩ : Fin 64)) := by
  by_cases hl : l.val < 64
  · rw [Cert.LibStack.beside_left cs cs h r (⟨l.val, hl⟩ : Fin 64) l rfl]
    exact congrArg (fun z : Fin 64 => cs (ix2 r z)) (Fin.ext (Nat.mod_eq_of_lt hl).symm)
  · have hl' : l.val - 64 < 64 := by have := l.isLt; omega
    rw [Cert.LibStack.beside_right cs cs h r (⟨l.val - 64, hl'⟩ : Fin 64) l (by show l.val = l.val - 64 + 64; omega)]
    exact congrArg (fun z : Fin 64 => cs (ix2 r z)) (Fin.ext (by show l.val - 64 = l.val % 64; omega))

/-- Pair `k`'s weight rows as a 512 × 192 matrix: row `j`, column `q`. -/
theorem rows_entry (w : Vec Ideal S32x512x192 .bf16) (k : Fin k0_t1_loop.trips) (h : S1x512x192.ShapeCasts S512x192)
    (hk : k.val < 32) (j : Fin 512) (q : Fin 192) :
    shapeCast S512x192 (pairRows w k) h (ix2 j q) = w (ix3 (⟨k.val, hk⟩ : Fin 32) j q) := by
  refine (shapeCast_dropUnit_apply ![512, 192] (pairRows w k) h (ix2 j q)).trans ?_
  unfold pairRows
  have hoff := k0_off1_eq k
  have o0 : k0_off1 k 0 = k.val := congrFun hoff 0
  have o1 : k0_off1 k 1 = 0 := congrFun hoff 1
  have o2 : k0_off1 k 2 = 0 := congrFun hoff 2
  refine congrArg w (funext fun a => Fin.ext ?_)
  match a with
  | ⟨0, _⟩ => show k0_off1 k 0 + 1 * 0 = k.val; omega
  | ⟨1, _⟩ => show k0_off1 k 1 + 1 * j.val = j.val; omega
  | ⟨2, _⟩ => show k0_off1 k 2 + 1 * q.val = q.val; omega

/-- Pair `k`'s biases: the `j`-th. -/
theorem bias_entry (b : Vec Ideal S32x512 .f32) (k : Fin k0_t1_loop.trips) (hk : k.val < 32) (j : Fin 512) :
    pairBias b k (ix2 (0 : Fin 1) j) = b (ix2 (⟨k.val, hk⟩ : Fin 32) j) := by
  unfold pairBias
  have hoff := k0_off2_eq k
  have o0 : k0_off2 k 0 = k.val := congrFun hoff 0
  have o1 : k0_off2 k 1 = 0 := congrFun hoff 1
  refine congrArg b (funext fun a => Fin.ext ?_)
  match a with
  | ⟨0, _⟩ => show k0_off2 k 0 + 1 * 0 = k.val; omega
  | ⟨1, _⟩ => show k0_off2 k 1 + 1 * j.val = j.val; omega

/-- The pre-activation in column `j` of pair `p`'s 512 on row `r` of the block: joined activations times the joined
    weight row, plus the bias. -/
def joinedGate (a : Vec Ideal S512x192 .f32) (w : Vec Ideal S32x512x192 .bf16) (b : Vec Ideal S32x512 .f32)
    (p : Fin 32) (r j : Fin 512) : EReal :=
  (∑ q : Fin 192, a (ix2 r q) * w (ix3 p j q)) + b (ix2 p j)

/-- Columns `j` of the pre-activations of pair `k` on row `r`: the product plus the biases. -/
theorem gates_entry (a : Vec Ideal S512x192 .f32) (w : Vec Ideal S32x512x192 .bf16) (b : Vec Ideal S32x512 .f32)
    (k : Fin k0_t1_loop.trips) (hk : k.val < 32)
    (h1 : S512x192.ShapeCasts S512x192) (h2 : FTy.bits .bf16 < FTy.bits .f32) (h3 : S1x512x192.ShapeCasts S512x192)
    (h4 : S1x512.ShapeCasts S512) (h5 : S512.ShapeCasts S1x512) (h6 : S1x512.Broadcasts S512x512) (r j : Fin 512) :
    addf (matmul dot_S512x192_S512x192_S512x512_1_1_0_0_n_n none (truncf .bf16 (shapeCast S512x192 a h1) h2)
        (shapeCast S512x192 (pairRows w k) h3) (constant S512x512 .f32 0x00000000#32))
      (broadcastTo S512x512 (shapeCast S1x512 (shapeCast S512 (pairBias b k) h4) h5) h6) (ix2 r j)
      = joinedGate a w b ⟨k.val, hk⟩ r j := by
  refine (addf_apply _ _ _).trans ?_
  rw [product_entry, bias_rows, bias_entry b k hk, shapeCast_self]
  unfold joinedGate
  refine congrArg (· + b (ix2 (⟨k.val, hk⟩ : Fin 32) j)) (Finset.sum_congr rfl fun q _ => ?_)
  rw [rows_entry w k h3 hk]
  rfl

/-- The cell applied to four groups of 128 columns of a 512-column matrix of pre-activations. -/
theorem cell_of_gates (G : FVec Ideal S512x512 .f32) (C : FVec Ideal S512x128 .f32)
    (h0 : S512x512.Slices ![0, 0] S512x128) (h1 : S512x512.Slices ![0, 128] S512x128)
    (h2 : S512x512.Slices ![0, 256] S512x128) (h3 : S512x512.Slices ![0, 384] S512x128) (r : Fin 512) (l : Fin 128) :
    mulf (logistic (extractStridedSlice S512x128 ![0, 384] G h3))
        (tanh (addf (mulf (logistic (extractStridedSlice S512x128 ![0, 128] G h1)) C)
          (mulf (logistic (extractStridedSlice S512x128 ![0, 0] G h0)) (tanh (extractStridedSlice S512x128 ![0, 256] G h2)))))
        (ix2 r l)
      = cellOut (G (ix2 r (⟨l.val, by have := l.isLt; omega⟩ : Fin 512)))
          (G (ix2 r (⟨128 + l.val, by have := l.isLt; omega⟩ : Fin 512)))
          (G (ix2 r (⟨256 + l.val, by have := l.isLt; omega⟩ : Fin 512)))
          (G (ix2 r (⟨384 + l.val, by have := l.isLt; omega⟩ : Fin 512))) (C (ix2 r l)) := by
  rw [← group_entry 0 G h0 r l ⟨l.val, by have := l.isLt; omega⟩ (by show l.val = 0 + l.val; omega),
    ← group_entry 128 G h1 r l ⟨128 + l.val, by have := l.isLt; omega⟩ rfl,
    ← group_entry 256 G h2 r l ⟨256 + l.val, by have := l.isLt; omega⟩ rfl,
    ← group_entry 384 G h3 r l ⟨384 + l.val, by have := l.isLt; omega⟩ rfl]
  rfl

/-- Entry `(r, l)` of pair `k`'s tile. -/
theorem tile_entry (a : Vec Ideal S512x192 .f32) (cs : Vec Ideal S512x64 .f32) (w : Vec Ideal S32x512x192 .bf16)
    (b : Vec Ideal S32x512 .f32) (k : Fin k0_t1_loop.trips) (hk : k.val < 32) (r : Fin 512) (l : Fin 128) :
    tile a cs w b k r l
      = cellOut (joinedGate a w b ⟨k.val, hk⟩ r ⟨l.val, by have := l.isLt; omega⟩)
          (joinedGate a w b ⟨k.val, hk⟩ r ⟨128 + l.val, by have := l.isLt; omega⟩)
          (joinedGate a w b ⟨k.val, hk⟩ r ⟨256 + l.val, by have := l.isLt; omega⟩)
          (joinedGate a w b ⟨k.val, hk⟩ r ⟨384 + l.val, by have := l.isLt; omega⟩)
          (cs (ix2 r (⟨l.val % 64, Nat.mod_lt _ (by decide)⟩ : Fin 64))) := by
  unfold tile k0_pay1
  refine (cell_of_gates _ _ _ _ _ _ r l).trans ?_
  rw [gates_entry a w b k hk, gates_entry a w b k hk, gates_entry a w b k hk, gates_entry a w b k hk, twice_entry]

end Cert.KernelIdeal.TileEntry

end
-- ==== Proof.Operands.lean ====
/-
  What the kernel's launch finds in its four operand arrays, entry by entry, in terms of the seven arguments.

  Before the launch the weights are joined along their last axis (`W_ih` then `W_hh`: 192 columns), cut into
  (pair, expert of the pair, gate type, hidden unit), the middle two swapped, and flattened again: row `j` of pair
  `p` (gate type `j / 128`, expert `(j / 64) mod 2`, hidden unit `j mod 64`) is row `64 (j / 128) + j mod 64` of
  expert `2 p + (j / 64) mod 2`. The summed biases go the same road. The activations `x` and `h0` are joined
  along the columns. (The change of float format of the weights is the identity on the extended reals.)
-/
import proofs.«148477_j83502754169015_2_alg».proof.Proof.Gen.KernelIdeal.Frame
import Idealize.ShloMosaic.Lib.Pipeline.Value
import Idealize.ShloMosaic.Lib.ValueIdx
import Idealize.ShloMosaic.Lib.StableHlo.Run
import proofs.«148477_j83502754169015_2_alg».proof.Proof.LibStack

set_option maxRecDepth 16384

noncomputable section

namespace Cert.KernelIdeal.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- The seven arguments as launched, as arrays of extended reals. -/
abbrev argX : S4096x128.Idx → EReal := m ((c : Thread nD τ).loc main_arg0)
abbrev argH : S4096x64.Idx → EReal := m ((c : Thread nD τ).loc main_arg1)
abbrev argC : S4096x64.Idx → EReal := m ((c : Thread nD τ).loc main_arg2)
abbrev argWih : S64x256x128.Idx → EReal := m ((c : Thread nD τ).loc main_arg3)
abbrev argWhh : S64x256x64.Idx → EReal := m ((c : Thread nD τ).loc main_arg4)
abbrev argBih : S64x256.Idx → EReal := m ((c : Thread nD τ).loc main_arg5)
abbrev argBhh : S64x256.Idx → EReal := m ((c : Thread nD τ).loc main_arg6)

/-- The weights joined along the last axis. -/
def joinedW : S64x256x192.Idx → EReal :=
  concatenate S64x256x192 2 [⟨S64x256x128, argWih m c⟩, ⟨S64x256x64, argWhh m c⟩]
    concatenates_S64x256x128_S64x256x64_S64x256x192_d2

/-- Its first 128 columns are `W_ih`'s. -/
theorem joinedW_left (n : Fin 64) (g : Fin 256) (d : Fin 128) (q : Fin 192) (hq : q.val = d.val) :
    joinedW m c (ix3 n g q) = argWih m c (ix3 n g d) := by
  unfold joinedW
  exact concatenate_pair_apply_left 2 _ _ concatenates_S64x256x128_S64x256x64_S64x256x192_d2 (ix3 n g q) rfl (ix3 n g d) fun b => by
    match b with
    | ⟨0, _⟩ => rfl
    | ⟨1, _⟩ => rfl
    | ⟨2, _⟩ => exact hq.symm

/-- Its last 64 columns are `W_hh`'s. -/
theorem joinedW_right (n : Fin 64) (g : Fin 256) (e : Fin 64) (q : Fin 192) (hq : q.val = e.val + 128) :
    joinedW m c (ix3 n g q) = argWhh m c (ix3 n g e) := by
  unfold joinedW
  exact concatenate_pair_apply_right 2 _ _ concatenates_S64x256x128_S64x256x64_S64x256x192_d2 (ix3 n g q) rfl rfl (ix3 n g e)
    (fun b hb => by
      match b with
      | ⟨0, _⟩ => rfl
      | ⟨1, _⟩ => rfl
      | ⟨2, _⟩ => exact absurd rfl hb)
    (by show e.val + 128 = q.val; exact hq.symm)

/-- The paired weights the launch finds: row `j` of pair `p` is a row of expert `2 p + (j / 64) mod 2`. -/
theorem pairedW_entry (p : Fin 32) (j : Fin 512) (q : Fin 192) (n : Fin 64) (g : Fin 256)
    (hn : n.val = 2 * p.val + j.val / 64 % 2) (hg : g.val = 64 * (j.val / 128) + j.val % 64) :
    V m c main_v5 (ix3 p j q) = joinedW m c (ix3 n g q) := by
  have e : (V m c main_v5 : S32x512x192.Idx → EReal)
      = shapeCast S32x512x192 (transpose S32x4x2x64x192 [0, 2, 1, 3, 4]
          (shapeCast S32x2x4x64x192 (joinedW m c) shapeCasts_S64x256x192_S32x2x4x64x192)
          transposes_S32x2x4x64x192_S32x4x2x64x192_0_2_1_3_4) shapeCasts_S32x4x2x64x192_S32x512x192 := by
    dsimp only [V, hostOps0]; after_results <;> rfl
  rw [e]
  have hp := p.isLt; have hj := j.isLt; have hq := q.isLt
  let tt : Fin 4 := ⟨j.val / 128, by omega⟩
  let ee : Fin 2 := ⟨j.val / 64 % 2, by omega⟩
  let uu : Fin 64 := ⟨j.val % 64, by omega⟩
  refine (shapeCast_apply _ shapeCasts_S32x4x2x64x192_S32x512x192 (ix3 p j q) (ix5 p tt ee uu q) ?_).trans ?_
  · rw [Shape.rowMajor_val_five, Shape.rowMajor_val_three]
    show (((p.val * 4 + j.val / 128) * 2 + j.val / 64 % 2) * 64 + j.val % 64) * 192 + q.val = (p.val * 512 + j.val) * 192 + q.val
    omega
  refine (transpose_apply [0, 2, 1, 3, 4] _ transposes_S32x2x4x64x192_S32x4x2x64x192_0_2_1_3_4 (ix5 p tt ee uu q) (ix5 p ee tt uu q)
    (fun b => by
      match b with
      | ⟨0, _⟩ => rfl
      | ⟨1, _⟩ => rfl
      | ⟨2, _⟩ => rfl
      | ⟨3, _⟩ => rfl
      | ⟨4, _⟩ => rfl)).trans ?_
  refine shapeCast_apply _ shapeCasts_S64x256x192_S32x2x4x64x192 (ix5 p ee tt uu q) (ix3 n g q) ?_
  rw [Shape.rowMajor_val_five, Shape.rowMajor_val_three]
  show (n.val * 256 + g.val) * 192 + q.val = ((((p.val * 2 + j.val / 64 % 2) * 4 + j.val / 128) * 64 + j.val % 64) * 192) + q.val
  rw [hn, hg]; omega

/-- The paired biases the launch finds. -/
theorem pairedB_entry (p : Fin 32) (j : Fin 512) (n : Fin 64) (g : Fin 256)
    (hn : n.val = 2 * p.val + j.val / 64 % 2) (hg : g.val = 64 * (j.val / 128) + j.val % 64) :
    V m c main_v8 (ix2 p j) = argBih m c (ix2 n g) + argBhh m c (ix2 n g) := by
  have e : (V m c main_v8 : S32x512.Idx → EReal)
      = shapeCast S32x512 (transpose S32x4x2x64 [0, 2, 1, 3]
          (shapeCast S32x2x4x64 (addf (F := Ideal) (φ := .f32) (argBih m c) (argBhh m c))
            shapeCasts_S64x256_S32x2x4x64)
          transposes_S32x2x4x64_S32x4x2x64_0_2_1_3) shapeCasts_S32x4x2x64_S32x512 := by
    dsimp only [V, hostOps0]; after_results <;> rfl
  rw [e]
  have hp := p.isLt; have hj := j.isLt
  let tt : Fin 4 := ⟨j.val / 128, by omega⟩
  let ee : Fin 2 := ⟨j.val / 64 % 2, by omega⟩
  let uu : Fin 64 := ⟨j.val % 64, by omega⟩
  refine (shapeCast_apply _ shapeCasts_S32x4x2x64_S32x512 (ix2 p j) (ix4 p tt ee uu) ?_).trans ?_
  · rw [Shape.rowMajor_val_four, Shape.rowMajor_val_two]
    show ((p.val * 4 + j.val / 128) * 2 + j.val / 64 % 2) * 64 + j.val % 64 = p.val * 512 + j.val
    omega
  refine (transpose_apply [0, 2, 1, 3] _ transposes_S32x2x4x64_S32x4x2x64_0_2_1_3 (ix4 p tt ee uu) (ix4 p ee tt uu)
    (fun b => by
      match b with
      | ⟨0, _⟩ => rfl
      | ⟨1, _⟩ => rfl
      | ⟨2, _⟩ => rfl
      | ⟨3, _⟩ => rfl)).trans ?_
  refine (shapeCast_apply _ shapeCasts_S64x256_S32x2x4x64 (ix4 p ee tt uu) (ix2 n g) ?_).trans rfl
  rw [Shape.rowMajor_val_four, Shape.rowMajor_val_two]
  show n.val * 256 + g.val = ((p.val * 2 + j.val / 64 % 2) * 4 + j.val / 128) * 64 + j.val % 64
  rw [hn, hg]; omega

/-- The joined activations the launch finds: their first 128 columns are `x`'s … -/
theorem joinedA_left (b : Fin 4096) (d : Fin 128) (q : Fin 192) (hq : q.val = d.val) :
    V m c main_v9 (ix2 b q) = argX m c (ix2 b d) := by
  have e : (V m c main_v9 : S4096x192.Idx → EReal)
      = concatenate S4096x192 1 [⟨S4096x128, argX m c⟩, ⟨S4096x64, argH m c⟩]
          concatenates_S4096x128_S4096x64_S4096x192_d1 := by
    dsimp only [V, hostOps0]; after_results <;> rfl
  rw [e]
  exact Cert.LibStack.beside_left _ _ concatenates_S4096x128_S4096x64_S4096x192_d1 b d q hq

/-- … and their last 64 are `h0`'s. -/
theorem joinedA_right (b : Fin 4096) (e' : Fin 64) (q : Fin 192) (hq : q.val = e'.val + 128) :
    V m c main_v9 (ix2 b q) = argH m c (ix2 b e') := by
  have e : (V m c main_v9 : S4096x192.Idx → EReal)
      = concatenate S4096x192 1 [⟨S4096x128, argX m c⟩, ⟨S4096x64, argH m c⟩]
          concatenates_S4096x128_S4096x64_S4096x192_d1 := by
    dsimp only [V, hostOps0]; after_results <;> rfl
  rw [e]
  exact Cert.LibStack.beside_right _ _ concatenates_S4096x128_S4096x64_S4096x192_d1 b e' q hq

end Cert.KernelIdeal.Operands

end
-- ==== Proof.KernelCells.lean ====
/-
  The kernel's result array is the specification's mixture of LSTM cells.

  Grid step `t` works on batch rows `512 t … 512 t + 511`: its activation and cell-state blocks are those rows of the
  joined activations and of `c0`, the paired weights and biases are whole, and its block of the result is those
  rows, all 4096 columns. Entry `(r, q)` of the block is entry `(r, q mod 128)` of pair `q / 128`'s tile; there,
  column `128 s + q mod 128` of the pair's pre-activations (gate type `s`) is gate row `64 s + q mod 64` of
  expert `q / 64`, and the sum over the 192 joined columns splits into the specification's two sums
  (`preact_eq`; the products commute). The eight blocks tile the array.
-/
import proofs.«148477_j83502754169015_2_alg».proof.Proof.Gen.KernelIdeal.Value
import proofs.«148477_j83502754169015_2_alg».proof.Proof.PairTiles
import proofs.«148477_j83502754169015_2_alg».proof.Proof.TileEntry
import proofs.«148477_j83502754169015_2_alg».proof.Proof.Operands
import proofs.«148477_j83502754169015_2_alg».proof.Proof.LstmSpec

set_option maxRecDepth 16384

noncomputable section

open scoped BigOperators

namespace Cert.KernelIdeal.Cells

open Cert.KernelIdeal Cert.KernelIdeal.Gen Cert.KernelIdeal.PairTiles Cert.KernelIdeal.TileEntry Cert.KernelIdeal.Operands
open Idealize.ShloMosaic Idealize.ShloMosaic.TcCoe Idealize.SL.Sem Idealize.ShloMosaic.ValueIdx Cert.LstmSpec
open Idealize.ShloMosaic.Pipeline (Dat)

variable (m : (ℓ : Loc nD τ sig) → Buf (Elt Ideal) ℓ) (ρ : Dev nD → PrngReg)

/-- The specification at the kernel's arguments. -/
def spec (c : Dev nD) : S4096x4096.Idx → EReal :=
  result (argX m c) (argH m c) (argC m c) (argWih m c) (argWhh m c) (argBih m c) (argBhh m c)

/-- Where each window's block sits at grid step `t`: the row blocks move with `t`, the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 ∧ t.val < 8 :=
  (by decide +kernel : ∀ t : Fin grid0.N, _)

/-- The step's activation block is rows `512 t …` of the joined activations. -/
theorem actBlock (c : Dev nD) (t : Fin cfg0.N) (r : Fin 512) (q : Fin 192) (b : Fin 4096) (hb : b.val = 512 * t.val + r.val) :
    iblk m c 0 t (ix2 r q) = V m c main_v9 (ix2 b q) := by
  obtain ⟨e0, e1, -⟩ := idx_facts t
  show V m c main_v9 (((cfg0.win 0).blk t).view.emb (ix2 r q)) = _
  refine congrArg (V m c main_v9) (funext fun a => Fin.ext ?_)
  match a with
  | ⟨0, _⟩ => show win0_0.index t (0 : Fin 2) * 512 + 1 * r.val = b.val; rw [e0, hb]; omega
  | ⟨1, _⟩ => show win0_0.index t (1 : Fin 2) * 192 + 1 * q.val = q.val; rw [e1]; omega

/-- The step's cell-state block is rows `512 t …` of `c0`. -/
theorem stateBlock (c : Dev nD) (t : Fin cfg0.N) (r : Fin 512) (u : Fin 64) (b : Fin 4096) (hb : b.val = 512 * t.val + r.val) :
    iblk m c 1 t (ix2 r u) = argC m c (ix2 b u) := by
  obtain ⟨-, -, e0, e1, -⟩ := idx_facts t
  show V m c main_arg2 (((cfg0.win 1).blk t).view.emb (ix2 r u)) = _
  rw [V_main_arg2 m c]
  refine congrArg (argC m c) (funext fun a => Fin.ext ?_)
  match a with
  | ⟨0, _⟩ => show win0_1.index t (0 : Fin 2) * 512 + 1 * r.val = b.val; rw [e0, hb]; omega
  | ⟨1, _⟩ => show win0_1.index t (1 : Fin 2) * 64 + 1 * u.val = u.val; rw [e1]; omega

/-- Every step sees the paired weights whole … -/
theorem weightBlock (c : Dev nD) (t : Fin cfg0.N) (p : Fin 32) (j : Fin 512) (q : Fin 192) :
    iblk m c 2 t (ix3 p j q) = V m c main_v5 (ix3 p j q) := by
  obtain ⟨-, -, -, -, e0, e1, e2, -⟩ := idx_facts t
  show V m c main_v5 (((cfg0.win 2).blk t).view.emb (ix3 p j q)) = _
  refine congrArg (V m c main_v5) (funext fun a => Fin.ext ?_)
  match a with
  | ⟨0, _⟩ => show win0_2.index t (0 : Fin 3) * 32 + 1 * p.val = p.val; rw [e0]; omega
  | ⟨1, _⟩ => show win0_2.index t (1 : Fin 3) * 512 + 1 * j.val = j.val; rw [e1]; omega
  | ⟨2, _⟩ => show win0_2.index t (2 : Fin 3) * 192 + 1 * q.val = q.val; rw [e2]; omega

/-- … and the paired biases whole. -/
theorem biasBlock (c : Dev nD) (t : Fin cfg0.N) (p : Fin 32) (j : Fin 512) :
    iblk m c 3 t (ix2 p j) = V m c main_v8 (ix2 p j) := by
  obtain ⟨-, -, -, -, -, -, -, e0, e1, -⟩ := idx_facts t
  show V m c main_v8 (((cfg0.win 3).blk t).view.emb (ix2 p j)) = _
  refine congrArg (V m c main_v8) (funext fun a => Fin.ext ?_)
  match a with
  | ⟨0, _⟩ => show win0_3.index t (0 : Fin 2) * 32 + 1 * p.val = p.val; rw [e0]; omega
  | ⟨1, _⟩ => show win0_3.index t (1 : Fin 2) * 512 + 1 * j.val = j.val; rw [e1]; omega

/-- Column `j` of pair `p`'s pre-activations on row `r` of step `t` is the specification's pre-activation of gate row
    `64 (j / 128) + j mod 64` of expert `2 p + (j / 64) mod 2` on batch row `512 t + r`: the sum over the 192 joined
    columns is the sum over `x`'s 128 plus the sum over `h0`'s 64, and each product commutes. -/
theorem preact_eq (c : Dev nD) (t : Fin cfg0.N) (p : Fin 32) (r j : Fin 512) (n : Fin 64) (b : Fin 4096) (g : Fin 256)
    (hn : n.val = 2 * p.val + j.val / 64 % 2) (hg : g.val = 64 * (j.val / 128) + j.val % 64)
    (hb : b.val = 512 * t.val + r.val) :
    joinedGate (iblk m c 0 t) (iblk m c 2 t) (iblk m c 3 t) p r j
      = gate (argX m c) (argH m c) (argWih m c) (argWhh m c) (argBih m c) (argBhh m c) n b g := by
  unfold joinedGate gate
  rw [sum_split]
  refine congr (congrArg HAdd.hAdd (congr (congrArg HAdd.hAdd ?_) ?_)) ?_
  · refine Finset.sum_congr rfl fun d _ => ?_
    exact (congrArg₂ (fun u v : EReal => u * v)
      ((actBlock m c t r _ b hb).trans (joinedA_left m c b d _ rfl))
      ((weightBlock m c t p j _).trans ((pairedW_entry m c p j _ n g hn hg).trans (joinedW_left m c n g d _ rfl)))).trans
      (mul_comm _ _)
  · refine Finset.sum_congr rfl fun e _ => ?_
    exact (congrArg₂ (fun u v : EReal => u * v)
      ((actBlock m c t r _ b hb).trans (joinedA_right m c b e _ (by show 128 + e.val = e.val + 128; omega)))
      ((weightBlock m c t p j _).trans ((pairedW_entry m c p j _ n g hn hg).trans
        (joinedW_right m c n g e _ (by show 128 + e.val = e.val + 128; omega))))).trans
      (mul_comm _ _)
  · exact (biasBlock m c t p j).trans (pairedB_entry m c p j n g hn hg)

theorem cellOut_congr {a a' b b' c c' d d' e e' : EReal} (ha : a = a') (hb : b = b') (hc : c = c') (hd : d = d')
    (he : e = e') : cellOut a b c d e = cellOut a' b' c' d' e' := by
  rw [ha, hb, hc, hd, he]

/-- Entry `(r, q)` of step `t`'s block is the specification at row `512 t + r`, column `q`. -/
theorem point_entry (c : Dev nD) (t : Fin cfg0.N) (y : S512x4096.Idx) (b : Fin 4096) (hb : b.val = 512 * t.val + (y 0).val) :
    block (iblk m c 0 t) (iblk m c 1 t) (iblk m c 2 t) (iblk m c 3 t) y = spec m c (ix2 b (y 1)) := by
  have hy0 := idx2_lt0 y
  have hy1 := idx2_lt1 y
  have hk : (y 1).val / 128 < 32 := by omega
  unfold block
  refine (tile_entry (iblk m c 0 t) (iblk m c 1 t) (iblk m c 2 t) (iblk m c 3 t) _ hk (y 0) _).trans ?_
  unfold spec result newHidden
  refine cellOut_congr ?_ ?_ ?_ ?_ ?_
  · exact preact_eq m c t _ _ _ _ _ _ (by show (y 1).val / 64 = 2 * ((y 1).val / 128) + (y 1).val % 128 / 64 % 2; omega)
      (by show (y 1).val % 64 = 64 * ((y 1).val % 128 / 128) + (y 1).val % 128 % 64; omega) hb
  · exact preact_eq m c t _ _ _ _ _ _ (by show (y 1).val / 64 = 2 * ((y 1).val / 128) + (128 + (y 1).val % 128) / 64 % 2; omega)
      (by show 64 + (y 1).val % 64 = 64 * ((128 + (y 1).val % 128) / 128) + (128 + (y 1).val % 128) % 64; omega) hb
  · exact preact_eq m c t _ _ _ _ _ _ (by show (y 1).val / 64 = 2 * ((y 1).val / 128) + (256 + (y 1).val % 128) / 64 % 2; omega)
      (by show 128 + (y 1).val % 64 = 64 * ((256 + (y 1).val % 128) / 128) + (256 + (y 1).val % 128) % 64; omega) hb
  · exact preact_eq m c t _ _ _ _ _ _ (by show (y 1).val / 64 = 2 * ((y 1).val / 128) + (384 + (y 1).val % 128) / 64 % 2; omega)
      (by show 192 + (y 1).val % 64 = 64 * ((384 + (y 1).val % 128) / 128) + (384 + (y 1).val % 128) % 64; omega) hb
  · exact (stateBlock m c t (y 0) _ b hb).trans
      (congrArg (fun z : Fin 64 => argC m c (ix2 b z)) (Fin.ext (by show (y 1).val % 128 % 64 = (y 1).val % 64; omega)))

/-- What step `t` writes back is its block of the specification. -/
theorem flushed_eq (c : Dev nD) (t : Fin cfg0.N) :
    (dats m 0 c).flushed 4 t = ((cfg0.win 4).blk t).view.read (Elt Ideal) (spec m c) := by
  rw [Cert.KernelIdeal.Value.flushed4_A m c t, block_eq]
  obtain ⟨-, -, -, -, -, -, -, -, -, e0, e1, ht⟩ := idx_facts t
  funext y
  have hy0 := idx2_lt0 y
  show block (iblk m c 0 t) (iblk m c 1 t) (iblk m c 2 t) (iblk m c 3 t) y = spec m c (((cfg0.win 4).blk t).view.emb y)
  refine (point_entry m c t y ⟨512 * t.val + (y 0).val, by omega⟩ rfl).trans ?_
  refine congrArg (spec m c) (funext fun a => Fin.ext ?_)
  match a with
  | ⟨0, _⟩ => show 512 * t.val + (y 0).val = win0_4.index t (0 : Fin 2) * 512 + 1 * (y 0).val; rw [e0]; omega
  | ⟨1, _⟩ => show (y 1).val = win0_4.index t (1 : Fin 2) * 4096 + 1 * (y 1).val; rw [e1]; omega

/-- An index of the array is in step `t`'s block iff each coordinate is in the block's range on its axis. -/
theorem mem_blk (t : Fin cfg0.N) (i : S4096x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v10).slice (win0_4.rect t)).set ↔ _
  rw [View.set_slice_whole, Rect.mem_set_unit]
  exact Iff.rfl

/-- The eight row blocks tile the array: row `i` is in step `i / 512`'s. -/
theorem covered (i : S4096x4096.Idx) :
    ∃ t : Fin cfg0.N, (cfg0.win 4).flush t = true ∧ i ∈ ((cfg0.win 4).blk t).view.set := by
  have h0 := idx2_lt0 i
  have h1 := idx2_lt1 i
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, e0, e1, -⟩ := idx_facts t
  refine ⟨t, flush0_4 t, (mem_blk t i).mpr fun a => ?_⟩
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 4096 ≤ (i 1).val ∧ (i 1).val < win0_4.index t (1 : Fin 2) * 4096 + 4096
    rw [e1]; omega

/-- The result array after the run is the specification. -/
theorem final (c : Dev nD) : (dats m 0 c).arrAt 4 cfg0.N = spec m c :=
  (dats m 0 c).arrAt_eq_of_cover 4 (spec m c) (fun t _ => flushed_eq m c t) covered

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v10) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Cells

end
-- ==== Proof.RefCells.lean ====
/-
  The reference computes the mixture of LSTM cells of the specification, entry by entry.

  Its two products are taken with the weights on the left (`W_ih · xᵀ`, `W_hh · h0ᵀ`, then a transpose), so
  entry `(n, b, g)` of their sum is the specification's pre-activation as written there; the four gate slices are
  the column ranges 0–63, 64–127, 128–191, 192–255 of it; the logistic function is spelt `1 / (1 + e^(-z))`; and the
  final transpose and reshape put expert `n`'s hidden unit `u` of row `b` in column `64 n + u`.
-/
import proofs.«148477_j83502754169015_2_alg».proof.Proof.LstmSpec
import proofs.«148477_j83502754169015_2_alg».proof.Proof.Gen.ReferenceIdeal.Read

noncomputable section

namespace Cert.ReferenceIdeal.Cells

open Cert.ReferenceIdeal Cert.ReferenceIdeal.Read Idealize.ShloMosaic Idealize.ShloMosaic.ValueIdx Cert.LstmSpec

variable (x0 : (⟨S4096x128, .f32⟩ : BufTy).Contents (Elt Ideal)) (x1 x2 : (⟨S4096x64, .f32⟩ : BufTy).Contents (Elt Ideal))
  (x3 : (⟨S64x256x128, .f32⟩ : BufTy).Contents (Elt Ideal)) (x4 : (⟨S64x256x64, .f32⟩ : BufTy).Contents (Elt Ideal))
  (x5 x6 : (⟨S64x256, .f32⟩ : BufTy).Contents (Elt Ideal))

/-- The summed products plus the summed biases, at expert `n`, batch row `b`, gate row `g`, are the pre-activation. -/
theorem preact (n : Fin 64) (b : Fin 4096) (g : Fin 256) :
    val_main_v8 (F := Ideal) x0 x1 x3 x4 x5 x6 (ix3 n b g) = gate x0 x1 x3 x4 x5 x6 n b g := by
  rw [val_main_v8_apply, val_main_v4_apply, val_main_v1_apply, val_main_v0_apply, val_main_v3_apply, val_main_v2_apply,
    val_main_v7_apply, val_main_v6_apply, val_main_v5_apply]
  have el0 : ∀ k : Fin 128, lidx_main_v0 (idx_main_v1 (ix3 n b g)) k = ix3 n g k := fun k => funext fun a => Fin.ext (by
    match a with | ⟨0, _⟩ => rfl | ⟨1, _⟩ => rfl | ⟨2, _⟩ => rfl)
  have er0 : ∀ k : Fin 128, ridx_main_v0 (idx_main_v1 (ix3 n b g)) k = ix2 b k := fun k => funext fun a => Fin.ext (by
    match a with | ⟨0, _⟩ => rfl | ⟨1, _⟩ => rfl)
  have el2 : ∀ k : Fin 64, lidx_main_v2 (idx_main_v3 (ix3 n b g)) k = ix3 n g k := fun k => funext fun a => Fin.ext (by
    match a with | ⟨0, _⟩ => rfl | ⟨1, _⟩ => rfl | ⟨2, _⟩ => rfl)
  have er2 : ∀ k : Fin 64, ridx_main_v2 (idx_main_v3 (ix3 n b g)) k = ix2 b k := fun k => funext fun a => Fin.ext (by
    match a with | ⟨0, _⟩ => rfl | ⟨1, _⟩ => rfl)
  have eb : idx_main_v6 (idx_main_v7 (ix3 n b g)) = ix2 n g := funext fun a => Fin.ext (by
    match a with | ⟨0, _⟩ => rfl | ⟨1, _⟩ => rfl)
  simp only [el0, er0, el2, er2, eb]
  rfl

/-- Expert `n`'s new hidden unit `u` on row `b`, before the final re-layout. -/
theorem cell (n : Fin 64) (b : Fin 4096) (u : Fin 64) :
    val_main_v38 (F := Ideal) x0 x1 x2 x3 x4 x5 x6 (ix3 n b u) = newHidden x0 x1 x2 x3 x4 x5 x6 n b u := by
  have s9 : idx_main_v9 (ix3 n b u) = ix3 n b (⟨u.val, by omega⟩ : Fin 256) := funext fun a => Fin.ext (by
    match a with | ⟨0, _⟩ => rfl | ⟨1, _⟩ => rfl | ⟨2, _⟩ => rfl)
  have s10 : idx_main_v10 (ix3 n b u) = ix3 n b (⟨64 + u.val, by omega⟩ : Fin 256) := funext fun a => Fin.ext (by
    match a with | ⟨0, _⟩ => rfl | ⟨1, _⟩ => rfl | ⟨2, _⟩ => rfl)
  have s11 : idx_main_v11 (ix3 n b u) = ix3 n b (⟨128 + u.val, by omega⟩ : Fin 256) := funext fun a => Fin.ext (by
    match a with | ⟨0, _⟩ => rfl | ⟨1, _⟩ => rfl | ⟨2, _⟩ => rfl)
  have s12 : idx_main_v12 (ix3 n b u) = ix3 n b (⟨192 + u.val, by omega⟩ : Fin 256) := funext fun a => Fin.ext (by
    match a with | ⟨0, _⟩ => rfl | ⟨1, _⟩ => rfl | ⟨2, _⟩ => rfl)
  have sc : idx_main_v19 (idx_main_v20 (ix3 n b u)) = ix2 b u := funext fun a => Fin.ext (by
    match a with | ⟨0, _⟩ => rfl | ⟨1, _⟩ => rfl)
  simp only [val_main_v38_apply, val_main_v36_apply, val_main_v35_apply, val_main_cst_4_apply, val_main_v34_apply,
    val_main_v33_apply, val_main_cst_3_apply, val_main_v32_apply, val_main_v31_apply, val_main_v12_apply,
    val_main_v37_apply, val_main_v30_apply, val_main_v21_apply, val_main_v18_apply, val_main_v17_apply,
    val_main_cst_0_apply, val_main_v16_apply, val_main_v15_apply, val_main_cst_apply, val_main_v14_apply,
    val_main_v13_apply, val_main_v10_apply, val_main_v20_apply, val_main_v19_apply, val_main_v29_apply,
    val_main_v27_apply, val_main_v26_apply, val_main_cst_2_apply, val_main_v25_apply, val_main_v24_apply,
    val_main_cst_1_apply, val_main_v23_apply, val_main_v22_apply, val_main_v9_apply, val_main_v28_apply,
    val_main_v11_apply, s9, s10, s11, s12, sc, preact]
  unfold newHidden cellOut
  rw [← logistic_spelt, ← logistic_spelt, ← logistic_spelt]
  rfl

/-- The reference's result is the specification's. -/
theorem result_eq : val_main_v40 (F := Ideal) x0 x1 x2 x3 x4 x5 x6 = result x0 x1 x2 x3 x4 x5 x6 := by
  funext i
  rw [val_main_v40_apply, val_main_v39_apply]
  have h0 := idx2_lt0 i
  have h1 := idx2_lt1 i
  have e : idx_main_v39 (idx_main_v40 i)
      = ix3 (⟨(i 1).val / 64, by omega⟩ : Fin 64) (⟨(i 0).val, h0⟩ : Fin 4096) (⟨(i 1).val % 64, Nat.mod_lt _ (by decide)⟩ : Fin 64) :=
    funext fun a => Fin.ext (by
      match a with
      | ⟨0, _⟩ => show ((i 0).val * 4096 + (i 1).val) / 64 % 64 = (i 1).val / 64; omega
      | ⟨1, _⟩ => show ((i 0).val * 4096 + (i 1).val) / 4096 = (i 0).val; omega
      | ⟨2, _⟩ => show ((i 0).val * 4096 + (i 1).val) % 64 = (i 1).val % 64; omega)
  rw [e, cell]
  rfl

end Cert.ReferenceIdeal.Cells

end
-- ==== Proof.lean ====
/-
  A mixture of 64 LSTM cells: the kernel against its reference, on the extended reals.

  The reference computes, for every expert `n`, batch row `b` and gate row `g`, the pre-activation
  `W_ih[n,g]·x[b] + W_hh[n,g]·h0[b] + (b_ih[n,g] + b_hh[n,g])`, applies the LSTM cell, and lays expert `n`'s hidden unit
  `u` of row `b` in column `64 n + u` (Proof/LstmSpec.lean states it entry by entry; Proof/RefCells.lean reads the
  reference as that). The kernel joins `x` with `h0` and `W_ih` with `W_hh` so that one product over 192 columns replaces
  the two, pairs the experts and interleaves their gate rows so that each gate type of a pair is 128 adjacent columns,
  and walks the 32 pairs inside each of 8 grid steps of 512 batch rows (Proof/PairTiles.lean: a step's block is the
  32 tiles side by side; Proof/TileEntry.lean: one entry of a tile; Proof/Operands.lean: the joined and paired
  arrays entry by entry; Proof/KernelCells.lean: the result array). The two agree everywhere on the extended reals:
  a sum over the joined columns is the sum of the two sums, products commute, a change of float format is the
  identity, and `1 / (1 + e^(-z))` is the logistic function. The inputs' finiteness is never used.

  The three frames are the generated ones (the reference's is its run with the result dropped); the idealized kernel
  is the printed kernel read on the extended reals, with nothing rewritten.
-/
import proofs.«148477_j83502754169015_2_alg».proof.Defs
import proofs.«148477_j83502754169015_2_alg».proof.Proof.Gen.Kernel
import proofs.«148477_j83502754169015_2_alg».proof.Proof.Gen.Kernel.Skeleton
import proofs.«148477_j83502754169015_2_alg».proof.Proof.Gen.Kernel.Loops
import proofs.«148477_j83502754169015_2_alg».proof.Proof.Gen.Kernel.Launch
import proofs.«148477_j83502754169015_2_alg».proof.Proof.Gen.Kernel.Points
import proofs.«148477_j83502754169015_2_alg».proof.Proof.Gen.Kernel.Frame
import proofs.«148477_j83502754169015_2_alg».proof.Proof.Gen.KernelIdeal
import proofs.«148477_j83502754169015_2_alg».proof.Proof.Gen.KernelIdeal.Skeleton
import proofs.«148477_j83502754169015_2_alg».proof.Proof.Gen.KernelIdeal.Loops
import proofs.«148477_j83502754169015_2_alg».proof.Proof.Gen.KernelIdeal.Launch
import proofs.«148477_j83502754169015_2_alg».proof.Proof.Gen.KernelIdeal.Points
import proofs.«148477_j83502754169015_2_alg».proof.Proof.Gen.KernelIdeal.Frame
import proofs.«148477_j83502754169015_2_alg».proof.Proof.Gen.ReferenceIdeal
import proofs.«148477_j83502754169015_2_alg».proof.Proof.Gen.Pre_finite_inputs
import proofs.«148477_j83502754169015_2_alg».proof.Proof.Gen.KernelIdeal.Value
import proofs.«148477_j83502754169015_2_alg».proof.Proof.Gen.ReferenceIdeal.Run
import proofs.«148477_j83502754169015_2_alg».proof.Proof.Gen.ReferenceIdeal.Read
import proofs.«148477_j83502754169015_2_alg».proof.Proof.KernelCells
import proofs.«148477_j83502754169015_2_alg».proof.Proof.RefCells
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Run from memories that agree on the seven arguments, the kernel and the reference both end with the result array
    at the specification of those arguments. -/
theorem algebraic : Cert.algebraic_KernelIdeal_ReferenceIdeal := by
  intro m ρ m' ρ' _ hagree
  refine ⟨fun c => Cert.KernelIdeal.Cells.spec m c, fun c => Cert.KernelIdeal.Cells.spec m c,
    fun c => Cert.KernelIdeal.Cells.spec m c, ?_, ?_⟩
  · exact (θ_run Cert.KernelIdeal.defs _ _).mono (fun _ h c => ⟨(h c).1, (h c).1, (h c).1, (h c).2⟩)
      (Cert.KernelIdeal.Cells.run m ρ)
  · refine (θ_run Cert.ReferenceIdeal.defs _ _).mono (fun _ h c => ?_)
      (Cert.ReferenceIdeal.Value.run (F := Ideal) m' ρ')
    have e : Cert.ReferenceIdeal.Value.res_main_v40 m' c = Cert.KernelIdeal.Cells.spec m c := by
      rw [Cert.ReferenceIdeal.Read.val_main_v40_eq, Cert.ReferenceIdeal.Cells.result_eq, (hagree c).1, (hagree c).2.1,
        (hagree c).2.2.1, (hagree c).2.2.2.1, (hagree c).2.2.2.2.1, (hagree c).2.2.2.2.2.1, (hagree c).2.2.2.2.2.2]
      rfl
    exact ⟨(h c).1.trans e, (h c).2.1.trans e, (h c).2.2.1.trans e, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
